-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S2x3200000 32) (main_arg2 : FVec F S32x32 .f32) (main_arg3 : FVec F S32 .f32) (main_arg4 : FVec F S32x32 .f32) (main_arg5 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x32 : Shape := ⟨2, ![100000, 32]⟩
abbrev S2x3200000 : Shape := ⟨2, ![2, 3200000]⟩
abbrev S32x32 : Shape := ⟨2, ![32, 32]⟩
abbrev S32 : Shape := ⟨1, ![32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S10000x32 : Shape := ⟨2, ![10000, 32]⟩
abbrev S3300000x32 : Shape := ⟨2, ![3300000, 32]⟩
abbrev S1x32 : Shape := ⟨2, ![1, 32]⟩

abbrev nBuf : Space → Nat
  | .hbm => 78
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S3300000x1, .f32⟩
  | .hbm, ⟨40, _⟩ => ⟨S32x32, .f32⟩
  | .hbm, ⟨41, _⟩ => ⟨S100000x32, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x32, .f32⟩
  | .hbm, ⟨51, _⟩ => ⟨S3300000x32, .f32⟩
  | .hbm, ⟨52, _⟩ => ⟨S3300000x32, .f32⟩
  | .hbm, ⟨53, _⟩ => ⟨S_, .f32⟩
  | .hbm, ⟨54, _⟩ => ⟨S100000x32, .f32⟩
  | .hbm, ⟨55, _⟩ => ⟨S3300000x1, .i32⟩
  | .hbm, ⟨56, _⟩ => ⟨S100000x32, .f32⟩
  | .hbm, ⟨57, _⟩ => ⟨S1x32, .f32⟩
  | .hbm, ⟨58, _⟩ => ⟨S100000x32, .f32⟩
  | .hbm, ⟨59, _⟩ => ⟨S32x32, .f32⟩
  | .hbm, ⟨60, _⟩ => ⟨S100000x32, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x32, .f32⟩
  | .hbm, ⟨70, _⟩ => ⟨S3300000x32, .f32⟩
  | .hbm, ⟨71, _⟩ => ⟨S3300000x32, .f32⟩
  | .hbm, ⟨72, _⟩ => ⟨S_, .f32⟩
  | .hbm, ⟨73, _⟩ => ⟨S100000x32, .f32⟩
  | .hbm, ⟨74, _⟩ => ⟨S3300000x1, .i32⟩
  | .hbm, ⟨75, _⟩ => ⟨S100000x32, .f32⟩
  | .hbm, ⟨76, _⟩ => ⟨S1x32, .f32⟩
  | .hbm, ⟨77, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x32_S32x32_1_0 : S32x32.Transposes [1, 0] S32x32
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x32_S32x32_S10000x32_1_0_0_1_n_n_wf : DotDims.WF S10000x32 S32x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S32x32 : Shape := ⟨2, ![32, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩

abbrev nBuf : Space → Nat
  | .hbm => 86
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S3300000x1, .f32⟩
  | .hbm, ⟨40, _⟩ => ⟨S32x32, .f32⟩
  | .hbm, ⟨41, _⟩ => ⟨S100000x32, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x32, .f32⟩
  | .hbm, ⟨51, _⟩ => ⟨S3300000x32, .f32⟩
  | .hbm, ⟨52, _⟩ => ⟨S3300000x32, .f32⟩
  | .hbm, ⟨53, _⟩ => ⟨S_, .f32⟩
  | .hbm, ⟨54, _⟩ => ⟨S100000x32, .f32⟩
  | .hbm, ⟨55, _⟩ => ⟨S3300000x1, .i32⟩
  | .hbm, ⟨56, _⟩ => ⟨S100000x32, .f32⟩
  | .hbm, ⟨57, _⟩ => ⟨S1x32, .f32⟩
  | .hbm, ⟨58, _⟩ => ⟨S100000x32, .f32⟩
  | .hbm, ⟨59, _⟩ => ⟨S100000x32, .f32⟩
  | .hbm, ⟨60, _⟩ => ⟨S_, .f32⟩
  | .hbm, ⟨61, _⟩ => ⟨S100000x32, .f32⟩
  | .hbm, ⟨62, _⟩ => ⟨S100000x32, .f32⟩
  | .hbm, ⟨63, _⟩ => ⟨S32x32, .f32⟩
  | .hbm, ⟨64, _⟩ => ⟨S100000x32, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x32, .f32⟩
  | .hbm, ⟨74, _⟩ => ⟨S3300000x32, .f32⟩
  | .hbm, ⟨75, _⟩ => ⟨S3300000x32, .f32⟩
  | .hbm, ⟨76, _⟩ => ⟨S_, .f32⟩
  | .hbm, ⟨77, _⟩ => ⟨S100000x32, .f32⟩
  | .hbm, ⟨78, _⟩ => ⟨S3300000x1, .i32⟩
  | .hbm, ⟨79, _⟩ => ⟨S100000x32, .f32⟩
  | .hbm, ⟨80, _⟩ => ⟨S1x32, .f32⟩
  | .hbm, ⟨81, _⟩ => ⟨S100000x32, .f32⟩
  | .hbm, ⟨82, _⟩ => ⟨S100000x32, .f32⟩
  | .hbm, ⟨83, _⟩ => ⟨S_, .f32⟩
  | .hbm, ⟨84, _⟩ => ⟨S100000x32, .f32⟩
  | .hbm, ⟨85, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call1_cst : Ref sig .tc := ⟨.hbm, 83, rfl⟩
abbrev main_call1_v0 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x32_S32x32_1_0 : S32x32.Transposes [1, 0] S32x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x32_S32x32_S100000x32_1_0_0_1_n_n_wf : DotDims.WF S100000x32 S32x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.KernelRun.lean ====
/-
  The program is four pipelined regions among four stretches of host operations.  Its execution passes through nine
  boundaries; the contents of every buffer at the last one are `W8`.  The frame theorem keeps of that final state only
  that the six argument arrays are as launched.  Here the same run is stated with one more fact kept: the result array
  `main_v59` ends holding `W8` at its own reference — what the last region's write-backs leave.  Everything the value
  proof says about the kernel is then a statement about `W8`.
-/
import proofs.«173779_j2860448219412_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the segment theorem's implicit arguments are found by unifying its conclusion with this statement, which takes
-- unfolding plain definitions inside a metavariable's type
set_option backward.isDefEq.respectTransparency.types false in
/-- Every weakly fair execution of the program terminates without a fault; the result array ends at the last
    boundary's contents and the six arguments end as launched. -/
theorem run_named : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.GraphOps.lean ====
/-
  The graph side of a GCN layer, as functions of whole arrays over the extended reals.

  The edge list is a 2 × 3200000 array of node numbers: row 0 the sources, row 1 the destinations.  A self loop is
  appended for each of the 100000 nodes (`srcIdx`, `dstIdx`: 3300000 entries each).  A node number is read the way array
  indexing reads it: a negative one has 100000 added (`wrapIdx`).  The degree of a node counts the edges arriving at it
  (a scatter-add of ones at the destinations); its inverse square root at an edge's source times that at its
  destination is the edge's weight, kept as a column (`normColumn`).  Aggregation gathers the rows of a feature matrix
  at the edges' sources, scales each gathered row by its edge's weight and adds it into the row of the edge's
  destination, starting from the zero matrix (`aggregate`).

  These are the program's own host operations, composed; nothing is proved about them.  The kernel's program and the
  reference apply them to the same arguments, so the value proof only ever needs that equal inputs give equal outputs.
-/
import proofs.«173779_j2860448219412_1_alg».proof.Proof.Gen.KernelIdeal
import Idealize.ShloMosaic.PureOps.Ideal

noncomputable section

namespace Cert.KernelIdeal.Hand

open Cert.KernelIdeal Cert.KernelIdeal.Gen Idealize.ShloMosaic

/-- The edge list, the per-edge node numbers, the per-edge weights as a column, a node-feature matrix. -/
abbrev Edges := (⟨S2x3200000, .i32⟩ : BufTy).Contents (Elt Ideal)
abbrev EdgeNodes := (⟨S3300000, .i32⟩ : BufTy).Contents (Elt Ideal)
abbrev EdgeColumn := (⟨S3300000x1, .f32⟩ : BufTy).Contents (Elt Ideal)
abbrev Features := (⟨S100000x32, .f32⟩ : BufTy).Contents (Elt Ideal)

/-- The edges' sources followed by one self loop per node. -/
def srcIdx (E : Edges) : EdgeNodes :=
  concatenate S3300000 0 [⟨S3200000, (shapeCast _ (extractStridedSlice S1x3200000 ![0, 0] E slices_S2x3200000_S1x3200000_0_0) shapeCasts_S1x3200000_S3200000)⟩, ⟨S100000, (iotaInDim S100000 32 0)⟩] concatenates_S3200000_S100000_S3300000_d0

/-- The edges' destinations followed by one self loop per node. -/
def dstIdx (E : Edges) : EdgeNodes :=
  concatenate S3300000 0 [⟨S3200000, (shapeCast _ (extractStridedSlice S1x3200000 ![1, 0] E slices_S2x3200000_S1x3200000_1_0) shapeCasts_S1x3200000_S3200000)⟩, ⟨S100000, (iotaInDim S100000 32 0)⟩] concatenates_S3200000_S100000_S3300000_d0

/-- A node number as array indexing reads it: a negative one counts from the end. -/
def wrapIdx (v : EdgeNodes) : EdgeNodes :=
  select (cmpi .slt v (broadcastInDim S3300000 ![] bcast_S_S3300000 (constantI S_ 32 0#32))) (addi v (broadcastInDim S3300000 ![] bcast_S_S3300000 (constantI S_ 32 100000#32))) v

/-- The inverse square root of each node's in-degree, self loop included. -/
def invSqrtDegree (d : EdgeNodes) : (⟨S100000, .f32⟩ : BufTy).Contents (Elt Ideal) :=
  Host.rsqrt (F := Ideal) (Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 d) (broadcastInDim S3300000 ![] bcast_S_S3300000 (constant (F := Ideal) S_ .f32 0x3F800000#32)))

/-- Each edge's weight, as a column: the inverse square root of the degree at its source times that at its destination. -/
def normColumn (s d : EdgeNodes) : EdgeColumn :=
  broadcastInDim S3300000x1 ![0] bcast_S3300000_S3300000x1_0 (mulf (F := Ideal) (s := S3300000) (φ := .f32) (Host.gather gather_S100000_S3300000x1_S3300000_n_0_n_n_0_1_1 (invSqrtDegree d) (broadcastInDim S3300000x1 ![0] bcast_S3300000_S3300000x1_0 (wrapIdx s))) (Host.gather gather_S100000_S3300000x1_S3300000_n_0_n_n_0_1_1 (invSqrtDegree d) (broadcastInDim S3300000x1 ![0] bcast_S3300000_S3300000x1_0 (wrapIdx d))))

/-- Aggregation: the rows of `H` at the edges' sources, each scaled by its edge's weight, added into the rows of the
    edges' destinations, from the zero matrix. -/
def aggregate (s d : EdgeNodes) (n : EdgeColumn) (H : Features) : Features :=
  Host.scatterAdd (F := Ideal) scatter_S100000x32_S3300000x1_S3300000x32_1_0_0_1 (broadcastInDim S100000x32 ![] bcast_S_S100000x32 (constant (F := Ideal) S_ .f32 0x00000000#32)) (broadcastInDim S3300000x1 ![0] bcast_S3300000_S3300000x1_0 d) (mulf (F := Ideal) (s := S3300000x32) (φ := .f32) (Host.gather gather_S100000x32_S3300000x1_S3300000x32_1_0_n_n_0_1_132 H (broadcastInDim S3300000x1 ![0] bcast_S3300000_S3300000x1_0 (wrapIdx s))) (broadcastInDim S3300000x32 ![0, 1] bcast_S3300000x1_S3300000x32_0_1 n))

end Cert.KernelIdeal.Hand

end
-- ==== Proof.HostStretches.lean ====
/-
  The four stretches of host operations between the pipelined regions, read as values.

  A stretch turns the contents of the buffers (a valuation `X`) into new contents; each buffer it writes holds its
  operation's function of the operands' contents, every other buffer what it held.  Stated over an arbitrary `X`:

  * the first stretch computes, from the edge list, the edges' sources and destinations with the self loops appended
    and the column of edge weights, and transposes the first weight matrix;
  * the second gathers, scales and scatter-adds the first dense transform's output (`aggregate`) and reshapes the first
    bias to a row; the fourth does the same for the second layer;
  * the third transposes the second weight matrix.

  Between them a region rewrites only its own three arrays.  So the edges' sources, destinations and weights, computed
  once by the first stretch, and the six arguments are still there, unchanged, wherever a later stretch or region
  reads them: the walks `W…_src`, `W…_dst`, `W…_norm`, `W…_arg…` go back boundary by boundary to the launch memory.
-/
import proofs.«173779_j2860448219412_1_alg».proof.Proof.Gen.KernelIdeal.Frame
import proofs.«173779_j2860448219412_1_alg».proof.Proof.GraphOps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## What each stretch writes, over any contents -/

theorem stretch0_src (X : Valuation τ sig (Elt Ideal)) :
    StableHlo.after hostOps0 X (Proc.devRef .tc main_v5) = srcIdx (X (Proc.devRef .tc main_arg1)) := by
  after_results_simp <;> rfl

theorem stretch0_dst (X : Valuation τ sig (Elt Ideal)) :
    StableHlo.after hostOps0 X (Proc.devRef .tc main_v6) = dstIdx (X (Proc.devRef .tc main_arg1)) := by
  after_results_simp <;> rfl

theorem stretch0_norm (X : Valuation τ sig (Elt Ideal)) :
    StableHlo.after hostOps0 X (Proc.devRef .tc main_v27)
      = normColumn (srcIdx (X (Proc.devRef .tc main_arg1))) (dstIdx (X (Proc.devRef .tc main_arg1))) := by
  after_results_simp <;> rfl

theorem stretch0_weights (X : Valuation τ sig (Elt Ideal)) :
    StableHlo.after hostOps0 X (Proc.devRef .tc main_v28)
      = transpose S32x32 [1, 0] (X (Proc.devRef .tc main_arg2)) transposes_S32x32_S32x32_1_0 := by
  after_results_simp <;> rfl

theorem stretch1_agg (X : Valuation τ sig (Elt Ideal)) :
    StableHlo.after hostOps1 X (Proc.devRef .tc main_v41)
      = aggregate (X (Proc.devRef .tc main_v5)) (X (Proc.devRef .tc main_v6)) (X (Proc.devRef .tc main_v27)) (X (Proc.devRef .tc main_v29)) := by
  after_results_simp <;> rfl

theorem stretch1_bias (X : Valuation τ sig (Elt Ideal)) :
    StableHlo.after hostOps1 X (Proc.devRef .tc main_v42) = shapeCast _ (X (Proc.devRef .tc main_arg3)) shapeCasts_S32_S1x32 := by
  after_results_simp <;> rfl

theorem stretch2_weights (X : Valuation τ sig (Elt Ideal)) :
    StableHlo.after hostOps2 X (Proc.devRef .tc main_v44)
      = transpose S32x32 [1, 0] (X (Proc.devRef .tc main_arg4)) transposes_S32x32_S32x32_1_0 := by
  after_results_simp <;> rfl

theorem stretch3_agg (X : Valuation τ sig (Elt Ideal)) :
    StableHlo.after hostOps3 X (Proc.devRef .tc main_v57)
      = aggregate (X (Proc.devRef .tc main_v5)) (X (Proc.devRef .tc main_v6)) (X (Proc.devRef .tc main_v27)) (X (Proc.devRef .tc main_v45)) := by
  after_results_simp <;> rfl

theorem stretch3_bias (X : Valuation τ sig (Elt Ideal)) :
    StableHlo.after hostOps3 X (Proc.devRef .tc main_v58) = shapeCast _ (X (Proc.devRef .tc main_arg5)) shapeCasts_S32_S1x32 := by
  after_results_simp <;> rfl

/-! ## What each stretch leaves alone -/

theorem keep0_arg0 (X : Valuation τ sig (Elt Ideal)) :
    StableHlo.after hostOps0 X (Proc.devRef .tc main_arg0) = X (Proc.devRef .tc main_arg0) := by
  after_results_simp

theorem keep0_arg3 (X : Valuation τ sig (Elt Ideal)) :
    StableHlo.after hostOps0 X (Proc.devRef .tc main_arg3) = X (Proc.devRef .tc main_arg3) := by
  after_results_simp

theorem keep0_arg4 (X : Valuation τ sig (Elt Ideal)) :
    StableHlo.after hostOps0 X (Proc.devRef .tc main_arg4) = X (Proc.devRef .tc main_arg4) := by
  after_results_simp

theorem keep0_arg5 (X : Valuation τ sig (Elt Ideal)) :
    StableHlo.after hostOps0 X (Proc.devRef .tc main_arg5) = X (Proc.devRef .tc main_arg5) := by
  after_results_simp

theorem keep1_src (X : Valuation τ sig (Elt Ideal)) :
    StableHlo.after hostOps1 X (Proc.devRef .tc main_v5) = X (Proc.devRef .tc main_v5) := by
  after_results_simp

theorem keep1_dst (X : Valuation τ sig (Elt Ideal)) :
    StableHlo.after hostOps1 X (Proc.devRef .tc main_v6) = X (Proc.devRef .tc main_v6) := by
  after_results_simp

theorem keep1_norm (X : Valuation τ sig (Elt Ideal)) :
    StableHlo.after hostOps1 X (Proc.devRef .tc main_v27) = X (Proc.devRef .tc main_v27) := by
  after_results_simp

theorem keep1_arg4 (X : Valuation τ sig (Elt Ideal)) :
    StableHlo.after hostOps1 X (Proc.devRef .tc main_arg4) = X (Proc.devRef .tc main_arg4) := by
  after_results_simp

theorem keep1_arg5 (X : Valuation τ sig (Elt Ideal)) :
    StableHlo.after hostOps1 X (Proc.devRef .tc main_arg5) = X (Proc.devRef .tc main_arg5) := by
  after_results_simp

theorem keep2_src (X : Valuation τ sig (Elt Ideal)) :
    StableHlo.after hostOps2 X (Proc.devRef .tc main_v5) = X (Proc.devRef .tc main_v5) := by
  after_results_simp

theorem keep2_dst (X : Valuation τ sig (Elt Ideal)) :
    StableHlo.after hostOps2 X (Proc.devRef .tc main_v6) = X (Proc.devRef .tc main_v6) := by
  after_results_simp

theorem keep2_norm (X : Valuation τ sig (Elt Ideal)) :
    StableHlo.after hostOps2 X (Proc.devRef .tc main_v27) = X (Proc.devRef .tc main_v27) := by
  after_results_simp

theorem keep2_arg5 (X : Valuation τ sig (Elt Ideal)) :
    StableHlo.after hostOps2 X (Proc.devRef .tc main_arg5) = X (Proc.devRef .tc main_arg5) := by
  after_results_simp

theorem keep2_hidden (X : Valuation τ sig (Elt Ideal)) :
    StableHlo.after hostOps2 X (Proc.devRef .tc main_v43) = X (Proc.devRef .tc main_v43) := by
  after_results_simp

end Cert.KernelIdeal.Hand

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibDenseLayers.lean ====
/-
  Dense layers over the extended reals, as functions of whole arrays, and the host operations that compute them.
  The extents n, k, c are arbitrary naturals; nothing here depends on a program.

  * `mm x w` is the matrix product: entry (r, q) is the sum over j of x (r, j) · w (j, q).
  * `addBias x b` adds the vector b to every row of x; `biasRelu x b` is its positive part, max (x + b) 0.
  * `addBiasRow`, `biasReluRow` take the bias as a 1 × c row; the row that is the reshape of a vector acts as the
    vector does (`addBiasRow_cast`, `biasReluRow_cast`).

  On the host a matrix product is a `dot_general` contracting axis 1 of the left operand with axis 0 of the right
  (`hostDot_eq_mm`), a bias is broadcast in two steps [c] → [1, c] → [n, c] and added (`hostAddBias_eq`), and the
  positive part is a maximum with the zero splat (`hostBiasRelu_eq`, `zeroSplat_apply`).  Each lemma reads one of
  these at an index and finds the layer function there.  No law of the extended reals beyond the meaning of the
  operations is used: the sums keep their order and nothing is distributed.
-/
import Idealize.ShloMosaic.Lib.Pipeline.Value
import Idealize.ShloMosaic.Lib.ValueIdx
import Idealize.ShloMosaic.PureOps.Ideal.Laws
import proofs.«173779_j2860448219412_1_alg».proof.Proof.LibHostDot
import proofs.«173779_j2860448219412_1_alg».proof.Proof.LibRowOps
import proofs.«173779_j2860448219412_1_alg».proof.Proof.LibHostRows

noncomputable section

open scoped BigOperators

namespace Cert.Layers

open Idealize.ShloMosaic Idealize.ShloMosaic.ValueIdx

variable {n k c : ℕ}

/-- The matrix product of an n×k by a k×c matrix. -/
def mm (x : FVec Ideal ⟨2, ![n, k]⟩ .f32) (w : FVec Ideal ⟨2, ![k, c]⟩ .f32) : FVec Ideal ⟨2, ![n, c]⟩ .f32 :=
  fun i => ∑ j : Fin k, x (ix2 (i 0) j) * w (ix2 j (i 1))

/-- A vector added to every row of a matrix. -/
def addBias (x : FVec Ideal ⟨2, ![n, c]⟩ .f32) (b : FVec Ideal ⟨1, ![c]⟩ .f32) : FVec Ideal ⟨2, ![n, c]⟩ .f32 :=
  fun i => x i + b (ix1 (i 1))

/-- The positive part of a matrix plus a vector on every row. -/
def biasRelu (x : FVec Ideal ⟨2, ![n, c]⟩ .f32) (b : FVec Ideal ⟨1, ![c]⟩ .f32) : FVec Ideal ⟨2, ![n, c]⟩ .f32 :=
  fun i => max (x i + b (ix1 (i 1))) 0

theorem mm_apply (x : FVec Ideal ⟨2, ![n, k]⟩ .f32) (w : FVec Ideal ⟨2, ![k, c]⟩ .f32) (r : Fin n) (q : Fin c) :
    mm x w (ix2 r q) = ∑ j : Fin k, x (ix2 r j) * w (ix2 j q) := rfl

/-- The host's `dot_general` of two matrices, contracting the inner axis, is the matrix product. -/
theorem hostDot_eq_mm (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩) (prec : Option ContractPrecision)
    (x : FVec Ideal ⟨2, ![n, k]⟩ .f32) (w : FVec Ideal ⟨2, ![k, c]⟩ .f32) :
    Host.dotGeneral d prec x w = mm x w := by
  funext i
  rw [eq_ix2 i]
  exact Cert.LibHostDot.dotGeneral_plain_apply' d wf hd prec x w (i 0) (i 1)

/-- The zero splat broadcast from a scalar reads 0 everywhere. -/
theorem zeroSplat_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- The host's bias: the vector broadcast to a row and then down the rows, added to the matrix. -/
theorem hostAddBias_eq (h1 : (⟨1, ![c]⟩ : Shape).BroadcastsInDim ⟨2, ![1, c]⟩ ![1])
    (h2 : (⟨2, ![1, c]⟩ : Shape).BroadcastsInDim ⟨2, ![n, c]⟩ ![0, 1])
    (x : FVec Ideal ⟨2, ![n, c]⟩ .f32) (b : FVec Ideal ⟨1, ![c]⟩ .f32) :
    addf x (broadcastInDim ⟨2, ![n, c]⟩ ![0, 1] h2 (broadcastInDim ⟨2, ![1, c]⟩ ![1] h1 b)) = addBias x b := by
  funext i
  rw [addf_apply, Cert.LibHostRows.rowBroadcast_apply h1 h2 b i]
  rfl

/-- The host's bias followed by its maximum with the zero splat is the positive part. -/
theorem hostBiasRelu_eq (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, c]⟩ .f32) (b : FVec Ideal ⟨1, ![c]⟩ .f32) :
    maximumf (addf x (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu x b := by
  funext i
  rw [maximumf_apply, zeroSplat_apply h0 i, hostAddBias_eq h1 h2 x b]
  rfl

/-! ## The bias given as a row

  A kernel receives the bias as the 1 × c reshape of the vector and broadcasts that row down the block's rows. -/

/-- A row added to every row of a matrix. -/
def addBiasRow (x : FVec Ideal ⟨2, ![n, c]⟩ .f32) (b : FVec Ideal ⟨2, ![1, c]⟩ .f32) : FVec Ideal ⟨2, ![n, c]⟩ .f32 :=
  fun i => x i + b (ix2 (0 : Fin 1) (i 1))

/-- The positive part of a matrix plus a row on every row. -/
def biasReluRow (x : FVec Ideal ⟨2, ![n, c]⟩ .f32) (b : FVec Ideal ⟨2, ![1, c]⟩ .f32) : FVec Ideal ⟨2, ![n, c]⟩ .f32 :=
  fun i => max (x i + b (ix2 (0 : Fin 1) (i 1))) 0

theorem addBiasRow_apply (x : FVec Ideal ⟨2, ![n, c]⟩ .f32) (b : FVec Ideal ⟨2, ![1, c]⟩ .f32) (r : Fin n) (q : Fin c) :
    addBiasRow x b (ix2 r q) = x (ix2 r q) + b (ix2 (0 : Fin 1) q) := rfl

theorem biasReluRow_apply (x : FVec Ideal ⟨2, ![n, c]⟩ .f32) (b : FVec Ideal ⟨2, ![1, c]⟩ .f32) (r : Fin n) (q : Fin c) :
    biasReluRow x b (ix2 r q) = max (x (ix2 r q) + b (ix2 (0 : Fin 1) q)) 0 := rfl

/-- The row that is the reshape of a vector adds as the vector does. -/
theorem addBiasRow_cast (h : (⟨1, ![c]⟩ : Shape).ShapeCasts ⟨2, ![1, c]⟩)
    (x : FVec Ideal ⟨2, ![n, c]⟩ .f32) (b : FVec Ideal ⟨1, ![c]⟩ .f32) :
    addBiasRow x (shapeCast ⟨2, ![1, c]⟩ b h) = addBias x b := by
  funext i
  obtain ⟨r, q, rfl⟩ : ∃ (r : Fin n) (q : Fin c), i = ix2 r q := ⟨i 0, i 1, eq_ix2 i⟩
  show x (ix2 r q) + shapeCast ⟨2, ![1, c]⟩ b h (ix2 (0 : Fin 1) q) = x (ix2 r q) + b (ix1 q)
  rw [Cert.KernelBody.shapeCast_row_apply]

theorem biasReluRow_cast (h : (⟨1, ![c]⟩ : Shape).ShapeCasts ⟨2, ![1, c]⟩)
    (x : FVec Ideal ⟨2, ![n, c]⟩ .f32) (b : FVec Ideal ⟨1, ![c]⟩ .f32) :
    biasReluRow x (shapeCast ⟨2, ![1, c]⟩ b h) = biasRelu x b := by
  funext i
  obtain ⟨r, q, rfl⟩ : ∃ (r : Fin n) (q : Fin c), i = ix2 r q := ⟨i 0, i 1, eq_ix2 i⟩
  show max (x (ix2 r q) + shapeCast ⟨2, ![1, c]⟩ b h (ix2 (0 : Fin 1) q)) 0 = max (x (ix2 r q) + b (ix1 q)) 0
  rw [Cert.KernelBody.shapeCast_row_apply]

end Cert.Layers

end
-- ==== Proof.GcnLayer.lean ====
/-
  A GCN layer and the two-layer network, as functions of whole arrays over the extended reals.

  One layer: the node features times the transposed weight matrix (`mm`), aggregated over the graph's edges with the
  edge weights (`aggregate`), a bias added to every row and the positive part taken (`biasRelu`).  The network applies
  the layer twice over the same graph.  Both programs compute this function: the reference with the host's operations
  throughout, the kernel with its dense transform and its bias-and-positive-part done block by block in four pipelined
  regions.
-/
import proofs.«173779_j2860448219412_1_alg».proof.Proof.GraphOps
import proofs.«173779_j2860448219412_1_alg».proof.Proof.LibDenseLayers

noncomputable section

namespace Cert.KernelIdeal.Hand

open Cert.KernelIdeal Cert.KernelIdeal.Gen Idealize.ShloMosaic

/-- A 32 × 32 weight matrix and a bias vector of 32 entries. -/
abbrev Weights := (⟨S32x32, .f32⟩ : BufTy).Contents (Elt Ideal)
abbrev Bias := (⟨S32, .f32⟩ : BufTy).Contents (Elt Ideal)

/-- One layer over a graph given by its edges' sources `s`, destinations `d` and weights `n`. -/
def gcnLayer (s d : EdgeNodes) (n : EdgeColumn) (h : Features) (W : Weights) (b : Bias) : Features :=
  Cert.Layers.biasRelu (n := 100000) (c := 32)
    (aggregate s d n (Cert.Layers.mm (n := 100000) (k := 32) (c := 32) h
      (transpose S32x32 [1, 0] W transposes_S32x32_S32x32_1_0))) b

/-- The two-layer network on the graph the edge list `E` gives. -/
def gcn (x : Features) (E : Edges) (W1 : Weights) (b1 : Bias) (W2 : Weights) (b2 : Bias) : Features :=
  gcnLayer (srcIdx E) (dstIdx E) (normColumn (srcIdx E) (dstIdx E))
    (gcnLayer (srcIdx E) (dstIdx E) (normColumn (srcIdx E) (dstIdx E)) x W1 b1) W2 b2

end Cert.KernelIdeal.Hand

end
-- ==== Proof.Origin.lean ====
/-
  A block that starts at the origin of its buffer: the offset vector (0, 0) is the zero function.  The four regions'
  bodies load and store whole staging buffers through such a rectangle.
-/
import Idealize.ShloMosaic.Lib.ValueIdx

namespace Cert.KernelIdeal.Hand

theorem origin2 : (![0, 0] : Fin 2 → Nat) = fun _ => 0 :=
  funext fun a => match a with | ⟨0, _⟩ => rfl | ⟨1, _⟩ => rfl

end Cert.KernelIdeal.Hand
-- ==== Proof.LinearBlocks0.lean ====
/-
  The first pipelined region: a dense transform of the node features, ten row blocks of 10000 nodes.

  At grid point t the body loads rows 10000·t … 10000·t + 9999 of the feature matrix (a block of 10000 × 32) and the
  whole 32 × 32 weight matrix, rounds both to bf16 — the identity on extended reals — and stores their matrix product
  accumulated into zero.  Entry (p, q) of what it stores is the sum over k of block (p, k) · weight (k, q); block row p
  is row 10000·t + p of the array; so point t writes back exactly rows 10000·t … of the whole-array matrix product
  `mm features weights`.  The ten blocks tile the 100000 rows (row r lies in block r / 10000), hence after the region
  the output array is `mm features weights`, whatever the region found in its two input arrays.
-/
import proofs.«173779_j2860448219412_1_alg».proof.Proof.Gen.KernelIdeal.Frame
import proofs.«173779_j2860448219412_1_alg».proof.Proof.LibDenseLayers
import proofs.«173779_j2860448219412_1_alg».proof.Proof.Origin
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Linear0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body stores, at row p and column q of the block: the sum over k of block (p, k) · weight (k, q).
    Rounding to bf16 is the identity on extended reals and the product is accumulated into zero. -/
theorem payload_apply (x0 : Vec Ideal S10000x32 .f32) (x1 : Vec Ideal S32x32 .f32) (p : Fin 10000) (q : Fin 32) :
    k0_pay1 (F := Ideal) x0 x1 (ix2 p q) = ∑ k : Fin 32, x0 (ix2 p k) * x1 (ix2 k q) := by
  unfold k0_pay1
  refine (Cert.KernelBody.matmul_plain_zero_apply (m := 10000) (k := 32) (n := 32)
    dot_S10000x32_S32x32_S10000x32_1_0_0_1_n_n_wf none
    (truncf .bf16 x0 bitsLt_bf16_f32) (truncf .bf16 (shapeCast S32x32 x1 shapeCasts_S32x32_S32x32) bitsLt_bf16_f32) p q).trans ?_
  refine Finset.sum_congr rfl fun k _ => ?_
  rw [truncf_apply, truncf_apply, shapeCast_self]

/-- The three index maps over the grid: the feature block and the output block move with the point along the rows,
    the weight block stays at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 10000·t … of the feature array. -/
theorem rows_block (c : Dev nD) (t : Fin cfg0.N) (y : S10000x32.Idx) (i : S100000x32.Idx)
    (h0 : (i 0).val = t.val * 10000 + (y 0).val) (h1 : (i 1).val = (y 1).val) :
    (iblk0 V c 0 t : Vec Ideal S10000x32 .f32) y = (V c main_arg0 : S100000x32.Idx → Ideal .f32) i := by
  obtain ⟨e0, e1, -, -, -, -⟩ := index_facts t
  unfold iblk0
  rw [View.read_apply]
  refine congrArg (V c main_arg0 : S100000x32.Idx → Ideal .f32) ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 32 + 1 * (y 1).val = (i 1).val; rw [e1, h1]; omega

/-- The weight block at every point is the whole weight array. -/
theorem weight_block (c : Dev nD) (t : Fin cfg0.N) (y : S32x32.Idx) :
    (iblk0 V c 1 t : Vec Ideal S32x32 .f32) y = (V c main_v28 : S32x32.Idx → Ideal .f32) y := by
  obtain ⟨-, -, e2, e3, -, -⟩ := index_facts t
  unfold iblk0
  rw [View.read_apply]
  refine congrArg (V c main_v28 : S32x32.Idx → Ideal .f32) ?_
  funext a
  apply Fin.ext
  match a with
  | ⟨0, _⟩ => show win0_1.index t (0 : Fin 2) * 32 + 1 * (y 0).val = (y 0).val; rw [e2]; omega
  | ⟨1, _⟩ => show win0_1.index t (1 : Fin 2) * 32 + 1 * (y 1).val = (y 1).val; rw [e3]; omega

/-- What point t writes back is block t of the whole-array matrix product. -/
theorem flushed_eq (c : Dev nD) (t : Fin cfg0.N) :
    (dat0 V c).flushed 2 t = ((cfg0.win 2).blk t).view.read (Elt Ideal)
      (Cert.Layers.mm (n := 100000) (k := 32) (c := 32) (V c main_arg0) (V c main_v28)) := by
  show (cfg0.win 2).cut (grid0.coords t) ((dat0 V c).after 2 t) = _
  rw [after0_2]
  unfold out0_2
  rw [View.canon_unit_zero origin2]
  simp only [View.ld_unit_zero (S := S10000x32) origin2, View.ld_unit_zero (S := S32x32) origin2]
  funext j
  obtain ⟨p, q, rfl⟩ : ∃ (p : Fin 10000) (q : Fin 32), j = ix2 p q := ⟨j 0, j 1, eq_ix2 j⟩
  obtain ⟨-, -, -, -, e4, e5⟩ := index_facts t
  have ht : t.val < 10 := Nat.lt_of_lt_of_eq t.isLt (show cfg0.N = 10 from N_0)
  have hp : p.val < 10000 := p.isLt
  have hemb : ((cfg0.win 2).blk t).view.emb (ix2 p q)
      = (ix2 (⟨t.val * 10000 + p.val, by omega⟩ : Fin 100000) q : S100000x32.Idx) := by
    funext a
    apply Fin.ext
    match a with
    | ⟨0, _⟩ => show win0_2.index t (0 : Fin 2) * 10000 + 1 * p.val = t.val * 10000 + p.val; rw [e4]; omega
    | ⟨1, _⟩ => show win0_2.index t (1 : Fin 2) * 32 + 1 * q.val = q.val; rw [e5]; omega
  rw [View.read_apply, hemb, Cert.Layers.mm_apply]
  refine (payload_apply (iblk0 V c 0 t) (iblk0 V c 1 t) p q).trans ?_
  refine Finset.sum_congr rfl fun k _ => ?_
  exact congrArg₂ (· * ·)
    (rows_block V c t (ix2 p k) (ix2 (⟨t.val * 10000 + p.val, by omega⟩ : Fin 100000) k) rfl rfl)
    (weight_block V c t (ix2 k q))

/-- An index of the output array is in point t's block iff each coordinate is in the block's range on its axis. -/
theorem mem_block (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v29).slice (win0_2.rect t)).set ↔ _
  rw [View.set_slice_whole, Rect.mem_set_unit]
  exact Iff.rfl

/-- Every index of the output array is in some point's block: row r in block r / 10000. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 32 ≤ (i 1).val ∧ (i 1).val < win0_2.index t (1 : Fin 2) * 32 + 32
    rw [e5]; omega

/-- After the region the output array is the matrix product of the two input arrays as the region found them. -/
theorem final (c : Dev nD) :
    (dat0 V c).arrAt 2 cfg0.N = Cert.Layers.mm (n := 100000) (k := 32) (c := 32) (V c main_arg0) (V c main_v28) :=
  (dat0 V c).arrAt_eq_of_cover 2 _ (fun t _ => flushed_eq V c t) covered

end Cert.KernelIdeal.Hand.Linear0

end
-- ==== Proof.BiasBlocks1.lean ====
/-
  The second pipelined region: bias and positive part, ten row blocks of 10000 nodes.

  At grid point t the body loads rows 10000·t … 10000·t + 9999 of the aggregated features (a block of 10000 × 32) and
  the bias as a 1 × 32 row, broadcasts the row down the block's rows, adds, and stores the maximum with zero.  Entry
  (p, q) of what it stores is max (block (p, q) + row (0, q)) 0; block row p is row 10000·t + p of the array; so point t
  writes back rows 10000·t … of the whole-array function `biasReluRow aggregated row`.  The ten blocks tile the 100000
  rows, hence after the region the output array is `biasReluRow aggregated row`, whatever the region found in its two
  input arrays.
-/
import proofs.«173779_j2860448219412_1_alg».proof.Proof.Gen.KernelIdeal.Frame
import proofs.«173779_j2860448219412_1_alg».proof.Proof.LibDenseLayers
import proofs.«173779_j2860448219412_1_alg».proof.Proof.Origin
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Bias1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body stores, at row p and column q of the block: max (block (p, q) + row (0, q)) 0.  The casts are of a
    shape to itself, the row is broadcast down the rows, and the splat constant is zero. -/
theorem payload_apply (x0 : Vec Ideal S10000x32 .f32) (x1 : Vec Ideal S1x32 .f32) (p : Fin 10000) (q : Fin 32) :
    k1_pay1 (F := Ideal) x0 x1 (ix2 p q) = max (x0 (ix2 p q) + x1 (ix2 (0 : Fin 1) q)) 0 := by
  unfold k1_pay1
  show maximumf (addf (shapeCast S10000x32 x0 shapeCasts_S10000x32_S10000x32)
      (broadcastTo S10000x32 (shapeCast S1x32 x1 shapeCasts_S1x32_S1x32) broadcasts_S1x32_S10000x32))
    (broadcast S10000x32 (Scalar.ofBits (F := Ideal) .f32 0x00000000#32)) (ix2 p q) = _
  rw [maximumf_apply, addf_apply, broadcast_apply, shapeCast_self, shapeCast_self,
    Cert.KernelBody.broadcastTo_row_apply (a := 10000) (b := 32) x1 broadcasts_S1x32_S10000x32 p q]
  show max _ (Ideal.ofBits .f32 0x00000000#32) = _
  rw [Ideal.ofBits_zero_f32]

/-- The three index maps over the grid: the input block and the output block move with the point along the rows,
    the bias row stays at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point t is rows 10000·t … of the aggregated array. -/
theorem rows_block (c : Dev nD) (t : Fin cfg1.N) (y : S10000x32.Idx) (i : S100000x32.Idx)
    (h0 : (i 0).val = t.val * 10000 + (y 0).val) (h1 : (i 1).val = (y 1).val) :
    (iblk1 V c 0 t : Vec Ideal S10000x32 .f32) y = (V c main_v41 : S100000x32.Idx → Ideal .f32) i := by
  obtain ⟨e0, e1, -, -, -, -⟩ := index_facts t
  unfold iblk1
  rw [View.read_apply]
  refine congrArg (V c main_v41 : S100000x32.Idx → Ideal .f32) ?_
  funext a
  apply Fin.ext
  match a with
  | ⟨0, _⟩ => show win1_0.index t (0 : Fin 2) * 10000 + 1 * (y 0).val = (i 0).val; rw [e0, h0]; omega
  | ⟨1, _⟩ => show win1_0.index t (1 : Fin 2) * 32 + 1 * (y 1).val = (i 1).val; rw [e1, h1]; omega

/-- The bias block at every point is the whole 1 × 32 row. -/
theorem bias_block (c : Dev nD) (t : Fin cfg1.N) (y : S1x32.Idx) :
    (iblk1 V c 1 t : Vec Ideal S1x32 .f32) y = (V c main_v42 : S1x32.Idx → Ideal .f32) y := by
  obtain ⟨-, -, e2, e3, -, -⟩ := index_facts t
  unfold iblk1
  rw [View.read_apply]
  refine congrArg (V c main_v42 : S1x32.Idx → Ideal .f32) ?_
  funext a
  apply Fin.ext
  match a with
  | ⟨0, _⟩ => show win1_1.index t (0 : Fin 2) * 1 + 1 * (y 0).val = (y 0).val; rw [e2]; omega
  | ⟨1, _⟩ => show win1_1.index t (1 : Fin 2) * 32 + 1 * (y 1).val = (y 1).val; rw [e3]; omega

/-- What point t writes back is block t of the whole-array bias and positive part. -/
theorem flushed_eq (c : Dev nD) (t : Fin cfg1.N) :
    (dat1 V c).flushed 2 t = ((cfg1.win 2).blk t).view.read (Elt Ideal)
      (Cert.Layers.biasReluRow (n := 100000) (c := 32) (V c main_v41) (V c main_v42)) := by
  show (cfg1.win 2).cut (grid1.coords t) ((dat1 V c).after 2 t) = _
  rw [after1_2]
  unfold out1_2
  rw [View.canon_unit_zero origin2]
  simp only [View.ld_unit_zero (S := S10000x32) origin2, View.ld_unit_zero (S := S1x32) origin2]
  funext j
  obtain ⟨p, q, rfl⟩ : ∃ (p : Fin 10000) (q : Fin 32), j = ix2 p q := ⟨j 0, j 1, eq_ix2 j⟩
  obtain ⟨-, -, -, -, e4, e5⟩ := index_facts t
  have ht : t.val < 10 := Nat.lt_of_lt_of_eq t.isLt (show cfg1.N = 10 from N_1)
  have hp : p.val < 10000 := p.isLt
  have hemb : ((cfg1.win 2).blk t).view.emb (ix2 p q)
      = (ix2 (⟨t.val * 10000 + p.val, by omega⟩ : Fin 100000) q : S100000x32.Idx) := by
    funext a
    apply Fin.ext
    match a with
    | ⟨0, _⟩ => show win1_2.index t (0 : Fin 2) * 10000 + 1 * p.val = t.val * 10000 + p.val; rw [e4]; omega
    | ⟨1, _⟩ => show win1_2.index t (1 : Fin 2) * 32 + 1 * q.val = q.val; rw [e5]; omega
  rw [View.read_apply, hemb, Cert.Layers.biasReluRow_apply]
  refine (payload_apply (iblk1 V c 0 t) (iblk1 V c 1 t) p q).trans ?_
  exact congrArg₂ (fun a b => max (a + b) 0)
    (rows_block V c t (ix2 p q) (ix2 (⟨t.val * 10000 + p.val, by omega⟩ : Fin 100000) q) rfl rfl)
    (bias_block V c t (ix2 (0 : Fin 1) q))

/-- An index of the output array is in point t's block iff each coordinate is in the block's range on its axis. -/
theorem mem_block (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v43).slice (win1_2.rect t)).set ↔ _
  rw [View.set_slice_whole, Rect.mem_set_unit]
  exact Iff.rfl

/-- Every index of the output array is in some point's block: row r in block r / 10000. -/
theorem covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := index_facts t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 32 ≤ (i 1).val ∧ (i 1).val < win1_2.index t (1 : Fin 2) * 32 + 32
    rw [e5]; omega

/-- After the region the output array is the bias and positive part of the two input arrays as the region found them. -/
theorem final (c : Dev nD) :
    (dat1 V c).arrAt 2 cfg1.N = Cert.Layers.biasReluRow (n := 100000) (c := 32) (V c main_v41) (V c main_v42) :=
  (dat1 V c).arrAt_eq_of_cover 2 _ (fun t _ => flushed_eq V c t) covered

end Cert.KernelIdeal.Hand.Bias1

end
-- ==== Proof.LinearBlocks2.lean ====
/-
  The third pipelined region: the second layer's dense transform, ten row blocks of 10000 nodes.

  At grid point t the body loads rows 10000·t … 10000·t + 9999 of the first layer's output (a block of 10000 × 32) and the
  whole 32 × 32 weight matrix, casts the block to its own shape, rounds both to bf16 — the identity on extended reals — and stores their matrix product
  accumulated into zero.  Entry (p, q) of what it stores is the sum over k of block (p, k) · weight (k, q); block row p
  is row 10000·t + p of the array; so point t writes back exactly rows 10000·t … of the whole-array matrix product
  `mm features weights`.  The ten blocks tile the 100000 rows (row r lies in block r / 10000), hence after the region
  the output array is `mm features weights`, whatever the region found in its two input arrays.
-/
import proofs.«173779_j2860448219412_1_alg».proof.Proof.Gen.KernelIdeal.Frame
import proofs.«173779_j2860448219412_1_alg».proof.Proof.LibDenseLayers
import proofs.«173779_j2860448219412_1_alg».proof.Proof.Origin
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Linear2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body stores, at row p and column q of the block: the sum over k of block (p, k) · weight (k, q).
    Rounding to bf16 is the identity on extended reals and the product is accumulated into zero. -/
theorem payload_apply (x0 : Vec Ideal S10000x32 .f32) (x1 : Vec Ideal S32x32 .f32) (p : Fin 10000) (q : Fin 32) :
    k2_pay1 (F := Ideal) x0 x1 (ix2 p q) = ∑ k : Fin 32, x0 (ix2 p k) * x1 (ix2 k q) := by
  unfold k2_pay1
  refine (Cert.KernelBody.matmul_plain_zero_apply (m := 10000) (k := 32) (n := 32)
    dot_S10000x32_S32x32_S10000x32_1_0_0_1_n_n_wf none
    (truncf .bf16 (shapeCast S10000x32 x0 shapeCasts_S10000x32_S10000x32) bitsLt_bf16_f32)
    (truncf .bf16 (shapeCast S32x32 x1 shapeCasts_S32x32_S32x32) bitsLt_bf16_f32) p q).trans ?_
  refine Finset.sum_congr rfl fun k _ => ?_
  rw [truncf_apply, truncf_apply, shapeCast_self, shapeCast_self]

/-- The three index maps over the grid: the feature block and the output block move with the point along the rows,
    the weight block stays at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point t is rows 10000·t … of the feature array. -/
theorem rows_block (c : Dev nD) (t : Fin cfg2.N) (y : S10000x32.Idx) (i : S100000x32.Idx)
    (h0 : (i 0).val = t.val * 10000 + (y 0).val) (h1 : (i 1).val = (y 1).val) :
    (iblk2 V c 0 t : Vec Ideal S10000x32 .f32) y = (V c main_v43 : S100000x32.Idx → Ideal .f32) i := by
  obtain ⟨e0, e1, -, -, -, -⟩ := index_facts t
  unfold iblk2
  rw [View.read_apply]
  refine congrArg (V c main_v43 : S100000x32.Idx → Ideal .f32) ?_
  funext a
  apply Fin.ext
  match a with
  | ⟨0, _⟩ => show win2_0.index t (0 : Fin 2) * 10000 + 1 * (y 0).val = (i 0).val; rw [e0, h0]; omega
  | ⟨1, _⟩ => show win2_0.index t (1 : Fin 2) * 32 + 1 * (y 1).val = (i 1).val; rw [e1, h1]; omega

/-- The weight block at every point is the whole weight array. -/
theorem weight_block (c : Dev nD) (t : Fin cfg2.N) (y : S32x32.Idx) :
    (iblk2 V c 1 t : Vec Ideal S32x32 .f32) y = (V c main_v44 : S32x32.Idx → Ideal .f32) y := by
  obtain ⟨-, -, e2, e3, -, -⟩ := index_facts t
  unfold iblk2
  rw [View.read_apply]
  refine congrArg (V c main_v44 : S32x32.Idx → Ideal .f32) ?_
  funext a
  apply Fin.ext
  match a with
  | ⟨0, _⟩ => show win2_1.index t (0 : Fin 2) * 32 + 1 * (y 0).val = (y 0).val; rw [e2]; omega
  | ⟨1, _⟩ => show win2_1.index t (1 : Fin 2) * 32 + 1 * (y 1).val = (y 1).val; rw [e3]; omega

/-- What point t writes back is block t of the whole-array matrix product. -/
theorem flushed_eq (c : Dev nD) (t : Fin cfg2.N) :
    (dat2 V c).flushed 2 t = ((cfg2.win 2).blk t).view.read (Elt Ideal)
      (Cert.Layers.mm (n := 100000) (k := 32) (c := 32) (V c main_v43) (V c main_v44)) := by
  show (cfg2.win 2).cut (grid2.coords t) ((dat2 V c).after 2 t) = _
  rw [after2_2]
  unfold out2_2
  rw [View.canon_unit_zero origin2]
  simp only [View.ld_unit_zero (S := S10000x32) origin2, View.ld_unit_zero (S := S32x32) origin2]
  funext j
  obtain ⟨p, q, rfl⟩ : ∃ (p : Fin 10000) (q : Fin 32), j = ix2 p q := ⟨j 0, j 1, eq_ix2 j⟩
  obtain ⟨-, -, -, -, e4, e5⟩ := index_facts t
  have ht : t.val < 10 := Nat.lt_of_lt_of_eq t.isLt (show cfg2.N = 10 from N_2)
  have hp : p.val < 10000 := p.isLt
  have hemb : ((cfg2.win 2).blk t).view.emb (ix2 p q)
      = (ix2 (⟨t.val * 10000 + p.val, by omega⟩ : Fin 100000) q : S100000x32.Idx) := by
    funext a
    apply Fin.ext
    match a with
    | ⟨0, _⟩ => show win2_2.index t (0 : Fin 2) * 10000 + 1 * p.val = t.val * 10000 + p.val; rw [e4]; omega
    | ⟨1, _⟩ => show win2_2.index t (1 : Fin 2) * 32 + 1 * q.val = q.val; rw [e5]; omega
  rw [View.read_apply, hemb, Cert.Layers.mm_apply]
  refine (payload_apply (iblk2 V c 0 t) (iblk2 V c 1 t) p q).trans ?_
  refine Finset.sum_congr rfl fun k _ => ?_
  exact congrArg₂ (· * ·)
    (rows_block V c t (ix2 p k) (ix2 (⟨t.val * 10000 + p.val, by omega⟩ : Fin 100000) k) rfl rfl)
    (weight_block V c t (ix2 k q))

/-- An index of the output array is in point t's block iff each coordinate is in the block's range on its axis. -/
theorem mem_block (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v45).slice (win2_2.rect t)).set ↔ _
  rw [View.set_slice_whole, Rect.mem_set_unit]
  exact Iff.rfl

/-- Every index of the output array is in some point's block: row r in block r / 10000. -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := index_facts t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 32 ≤ (i 1).val ∧ (i 1).val < win2_2.index t (1 : Fin 2) * 32 + 32
    rw [e5]; omega

/-- After the region the output array is the matrix product of the two input arrays as the region found them. -/
theorem final (c : Dev nD) :
    (dat2 V c).arrAt 2 cfg2.N = Cert.Layers.mm (n := 100000) (k := 32) (c := 32) (V c main_v43) (V c main_v44) :=
  (dat2 V c).arrAt_eq_of_cover 2 _ (fun t _ => flushed_eq V c t) covered

end Cert.KernelIdeal.Hand.Linear2

end
-- ==== Proof.BiasBlocks3.lean ====
/-
  The fourth pipelined region: bias and positive part, ten row blocks of 10000 nodes.

  At grid point t the body loads rows 10000·t … 10000·t + 9999 of the aggregated features (a block of 10000 × 32) and
  the bias as a 1 × 32 row, broadcasts the row down the block's rows, adds, and stores the maximum with zero.  Entry
  (p, q) of what it stores is max (block (p, q) + row (0, q)) 0; block row p is row 10000·t + p of the array; so point t
  writes back rows 10000·t … of the whole-array function `biasReluRow aggregated row`.  The ten blocks tile the 100000
  rows, hence after the region the output array is `biasReluRow aggregated row`, whatever the region found in its two
  input arrays.
-/
import proofs.«173779_j2860448219412_1_alg».proof.Proof.Gen.KernelIdeal.Frame
import proofs.«173779_j2860448219412_1_alg».proof.Proof.LibDenseLayers
import proofs.«173779_j2860448219412_1_alg».proof.Proof.Origin
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Bias3

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body stores, at row p and column q of the block: max (block (p, q) + row (0, q)) 0.  The casts are of a
    shape to itself, the row is broadcast down the rows, and the splat constant is zero. -/
theorem payload_apply (x0 : Vec Ideal S10000x32 .f32) (x1 : Vec Ideal S1x32 .f32) (p : Fin 10000) (q : Fin 32) :
    k3_pay1 (F := Ideal) x0 x1 (ix2 p q) = max (x0 (ix2 p q) + x1 (ix2 (0 : Fin 1) q)) 0 := by
  unfold k3_pay1
  show maximumf (addf (shapeCast S10000x32 x0 shapeCasts_S10000x32_S10000x32)
      (broadcastTo S10000x32 (shapeCast S1x32 x1 shapeCasts_S1x32_S1x32) broadcasts_S1x32_S10000x32))
    (broadcast S10000x32 (Scalar.ofBits (F := Ideal) .f32 0x00000000#32)) (ix2 p q) = _
  rw [maximumf_apply, addf_apply, broadcast_apply, shapeCast_self, shapeCast_self,
    Cert.KernelBody.broadcastTo_row_apply (a := 10000) (b := 32) x1 broadcasts_S1x32_S10000x32 p q]
  show max _ (Ideal.ofBits .f32 0x00000000#32) = _
  rw [Ideal.ofBits_zero_f32]

/-- The three index maps over the grid: the input block and the output block move with the point along the rows,
    the bias row stays at the origin. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input block at point t is rows 10000·t … of the aggregated array. -/
theorem rows_block (c : Dev nD) (t : Fin cfg3.N) (y : S10000x32.Idx) (i : S100000x32.Idx)
    (h0 : (i 0).val = t.val * 10000 + (y 0).val) (h1 : (i 1).val = (y 1).val) :
    (iblk3 V c 0 t : Vec Ideal S10000x32 .f32) y = (V c main_v57 : S100000x32.Idx → Ideal .f32) i := by
  obtain ⟨e0, e1, -, -, -, -⟩ := index_facts t
  unfold iblk3
  rw [View.read_apply]
  refine congrArg (V c main_v57 : S100000x32.Idx → Ideal .f32) ?_
  funext a
  apply Fin.ext
  match a with
  | ⟨0, _⟩ => show win3_0.index t (0 : Fin 2) * 10000 + 1 * (y 0).val = (i 0).val; rw [e0, h0]; omega
  | ⟨1, _⟩ => show win3_0.index t (1 : Fin 2) * 32 + 1 * (y 1).val = (i 1).val; rw [e1, h1]; omega

/-- The bias block at every point is the whole 1 × 32 row. -/
theorem bias_block (c : Dev nD) (t : Fin cfg3.N) (y : S1x32.Idx) :
    (iblk3 V c 1 t : Vec Ideal S1x32 .f32) y = (V c main_v58 : S1x32.Idx → Ideal .f32) y := by
  obtain ⟨-, -, e2, e3, -, -⟩ := index_facts t
  unfold iblk3
  rw [View.read_apply]
  refine congrArg (V c main_v58 : S1x32.Idx → Ideal .f32) ?_
  funext a
  apply Fin.ext
  match a with
  | ⟨0, _⟩ => show win3_1.index t (0 : Fin 2) * 1 + 1 * (y 0).val = (y 0).val; rw [e2]; omega
  | ⟨1, _⟩ => show win3_1.index t (1 : Fin 2) * 32 + 1 * (y 1).val = (y 1).val; rw [e3]; omega

/-- What point t writes back is block t of the whole-array bias and positive part. -/
theorem flushed_eq (c : Dev nD) (t : Fin cfg3.N) :
    (dat3 V c).flushed 2 t = ((cfg3.win 2).blk t).view.read (Elt Ideal)
      (Cert.Layers.biasReluRow (n := 100000) (c := 32) (V c main_v57) (V c main_v58)) := by
  show (cfg3.win 2).cut (grid3.coords t) ((dat3 V c).after 2 t) = _
  rw [after3_2]
  unfold out3_2
  rw [View.canon_unit_zero origin2]
  simp only [View.ld_unit_zero (S := S10000x32) origin2, View.ld_unit_zero (S := S1x32) origin2]
  funext j
  obtain ⟨p, q, rfl⟩ : ∃ (p : Fin 10000) (q : Fin 32), j = ix2 p q := ⟨j 0, j 1, eq_ix2 j⟩
  obtain ⟨-, -, -, -, e4, e5⟩ := index_facts t
  have ht : t.val < 10 := Nat.lt_of_lt_of_eq t.isLt (show cfg3.N = 10 from N_3)
  have hp : p.val < 10000 := p.isLt
  have hemb : ((cfg3.win 2).blk t).view.emb (ix2 p q)
      = (ix2 (⟨t.val * 10000 + p.val, by omega⟩ : Fin 100000) q : S100000x32.Idx) := by
    funext a
    apply Fin.ext
    match a with
    | ⟨0, _⟩ => show win3_2.index t (0 : Fin 2) * 10000 + 1 * p.val = t.val * 10000 + p.val; rw [e4]; omega
    | ⟨1, _⟩ => show win3_2.index t (1 : Fin 2) * 32 + 1 * q.val = q.val; rw [e5]; omega
  rw [View.read_apply, hemb, Cert.Layers.biasReluRow_apply]
  refine (payload_apply (iblk3 V c 0 t) (iblk3 V c 1 t) p q).trans ?_
  exact congrArg₂ (fun a b => max (a + b) 0)
    (rows_block V c t (ix2 p q) (ix2 (⟨t.val * 10000 + p.val, by omega⟩ : Fin 100000) q) rfl rfl)
    (bias_block V c t (ix2 (0 : Fin 1) q))

/-- An index of the output array is in point t's block iff each coordinate is in the block's range on its axis. -/
theorem mem_block (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v59).slice (win3_2.rect t)).set ↔ _
  rw [View.set_slice_whole, Rect.mem_set_unit]
  exact Iff.rfl

/-- Every index of the output array is in some point's block: row r in block r / 10000. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := index_facts t
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 32 ≤ (i 1).val ∧ (i 1).val < win3_2.index t (1 : Fin 2) * 32 + 32
    rw [e5]; omega

/-- After the region the output array is the bias and positive part of the two input arrays as the region found them. -/
theorem final (c : Dev nD) :
    (dat3 V c).arrAt 2 cfg3.N = Cert.Layers.biasReluRow (n := 100000) (c := 32) (V c main_v57) (V c main_v58) :=
  (dat3 V c).arrAt_eq_of_cover 2 _ (fun t _ => flushed_eq V c t) covered

end Cert.KernelIdeal.Hand.Bias3

end
-- ==== Proof.KernelValue.lean ====
/-
  The kernel's result as a function of its arguments.

  The run ends with the result array at the last boundary's contents (`W8` at `main_v59`).  Reading backwards:
  the fourth region leaves there the bias and positive part of its two input arrays; those are what the fourth stretch
  computed — the aggregation of the third region's output, and the second bias as a row; the third region's output is
  the matrix product of the second region's output with the transposed second weight matrix; and so on down to the
  launch memory.  The edges' sources, destinations and weights computed by the first stretch, and the arguments
  themselves, are found unchanged at every later boundary, because a region rewrites only its own three arrays and a
  stretch only its own results.  Put together, the result array holds the two-layer network `gcn` of the six arguments.
-/
import proofs.«173779_j2860448219412_1_alg».proof.Proof.Gen.KernelIdeal.Frame
import proofs.«173779_j2860448219412_1_alg».proof.Proof.HostStretches
import proofs.«173779_j2860448219412_1_alg».proof.Proof.GcnLayer
import proofs.«173779_j2860448219412_1_alg».proof.Proof.LinearBlocks0
import proofs.«173779_j2860448219412_1_alg».proof.Proof.BiasBlocks1
import proofs.«173779_j2860448219412_1_alg».proof.Proof.LinearBlocks2
import proofs.«173779_j2860448219412_1_alg».proof.Proof.BiasBlocks3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The edges' sources, destinations and weights at every boundary up to the fourth stretch -/

theorem W1_src (c : Dev nD) : W1 m ρ c (Proc.devRef .tc main_v5) = srcIdx (m ((c : Thread nD τ).loc main_arg1)) := stretch0_src (W0 m ρ c)
theorem W2_src (c : Dev nD) : W2 m ρ c (Proc.devRef .tc main_v5) = srcIdx (m ((c : Thread nD τ).loc main_arg1)) :=
  (W2_of_ne m ρ c main_v5 (by decide)).trans (W1_src m ρ c)
theorem W3_src (c : Dev nD) : W3 m ρ c (Proc.devRef .tc main_v5) = srcIdx (m ((c : Thread nD τ).loc main_arg1)) :=
  (keep1_src (W2 m ρ c)).trans (W2_src m ρ c)
theorem W4_src (c : Dev nD) : W4 m ρ c (Proc.devRef .tc main_v5) = srcIdx (m ((c : Thread nD τ).loc main_arg1)) :=
  (W4_of_ne m ρ c main_v5 (by decide)).trans (W3_src m ρ c)
theorem W5_src (c : Dev nD) : W5 m ρ c (Proc.devRef .tc main_v5) = srcIdx (m ((c : Thread nD τ).loc main_arg1)) :=
  (keep2_src (W4 m ρ c)).trans (W4_src m ρ c)
theorem W6_src (c : Dev nD) : W6 m ρ c (Proc.devRef .tc main_v5) = srcIdx (m ((c : Thread nD τ).loc main_arg1)) :=
  (W6_of_ne m ρ c main_v5 (by decide)).trans (W5_src m ρ c)

theorem W1_dst (c : Dev nD) : W1 m ρ c (Proc.devRef .tc main_v6) = dstIdx (m ((c : Thread nD τ).loc main_arg1)) := stretch0_dst (W0 m ρ c)
theorem W2_dst (c : Dev nD) : W2 m ρ c (Proc.devRef .tc main_v6) = dstIdx (m ((c : Thread nD τ).loc main_arg1)) :=
  (W2_of_ne m ρ c main_v6 (by decide)).trans (W1_dst m ρ c)
theorem W3_dst (c : Dev nD) : W3 m ρ c (Proc.devRef .tc main_v6) = dstIdx (m ((c : Thread nD τ).loc main_arg1)) :=
  (keep1_dst (W2 m ρ c)).trans (W2_dst m ρ c)
theorem W4_dst (c : Dev nD) : W4 m ρ c (Proc.devRef .tc main_v6) = dstIdx (m ((c : Thread nD τ).loc main_arg1)) :=
  (W4_of_ne m ρ c main_v6 (by decide)).trans (W3_dst m ρ c)
theorem W5_dst (c : Dev nD) : W5 m ρ c (Proc.devRef .tc main_v6) = dstIdx (m ((c : Thread nD τ).loc main_arg1)) :=
  (keep2_dst (W4 m ρ c)).trans (W4_dst m ρ c)
theorem W6_dst (c : Dev nD) : W6 m ρ c (Proc.devRef .tc main_v6) = dstIdx (m ((c : Thread nD τ).loc main_arg1)) :=
  (W6_of_ne m ρ c main_v6 (by decide)).trans (W5_dst m ρ c)

theorem W1_norm (c : Dev nD) : W1 m ρ c (Proc.devRef .tc main_v27) = normColumn (srcIdx (m ((c : Thread nD τ).loc main_arg1))) (dstIdx (m ((c : Thread nD τ).loc main_arg1))) := stretch0_norm (W0 m ρ c)
theorem W2_norm (c : Dev nD) : W2 m ρ c (Proc.devRef .tc main_v27) = normColumn (srcIdx (m ((c : Thread nD τ).loc main_arg1))) (dstIdx (m ((c : Thread nD τ).loc main_arg1))) :=
  (W2_of_ne m ρ c main_v27 (by decide)).trans (W1_norm m ρ c)
theorem W3_norm (c : Dev nD) : W3 m ρ c (Proc.devRef .tc main_v27) = normColumn (srcIdx (m ((c : Thread nD τ).loc main_arg1))) (dstIdx (m ((c : Thread nD τ).loc main_arg1))) :=
  (keep1_norm (W2 m ρ c)).trans (W2_norm m ρ c)
theorem W4_norm (c : Dev nD) : W4 m ρ c (Proc.devRef .tc main_v27) = normColumn (srcIdx (m ((c : Thread nD τ).loc main_arg1))) (dstIdx (m ((c : Thread nD τ).loc main_arg1))) :=
  (W4_of_ne m ρ c main_v27 (by decide)).trans (W3_norm m ρ c)
theorem W5_norm (c : Dev nD) : W5 m ρ c (Proc.devRef .tc main_v27) = normColumn (srcIdx (m ((c : Thread nD τ).loc main_arg1))) (dstIdx (m ((c : Thread nD τ).loc main_arg1))) :=
  (keep2_norm (W4 m ρ c)).trans (W4_norm m ρ c)
theorem W6_norm (c : Dev nD) : W6 m ρ c (Proc.devRef .tc main_v27) = normColumn (srcIdx (m ((c : Thread nD τ).loc main_arg1))) (dstIdx (m ((c : Thread nD τ).loc main_arg1))) :=
  (W6_of_ne m ρ c main_v27 (by decide)).trans (W5_norm m ρ c)

/-! ## The arguments where a later stretch or region reads them -/

theorem W1_arg0 (c : Dev nD) : W1 m ρ c (Proc.devRef .tc main_arg0) = (m ((c : Thread nD τ).loc main_arg0)) := keep0_arg0 (W0 m ρ c)
theorem W1_weights (c : Dev nD) : W1 m ρ c (Proc.devRef .tc main_v28) = (transpose S32x32 [1, 0] (m ((c : Thread nD τ).loc main_arg2)) transposes_S32x32_S32x32_1_0) := stretch0_weights (W0 m ρ c)

theorem W2_arg3 (c : Dev nD) : W2 m ρ c (Proc.devRef .tc main_arg3) = (m ((c : Thread nD τ).loc main_arg3)) :=
  (W2_of_ne m ρ c main_arg3 (by decide)).trans (keep0_arg3 (W0 m ρ c))

theorem W2_arg4 (c : Dev nD) : W2 m ρ c (Proc.devRef .tc main_arg4) = (m ((c : Thread nD τ).loc main_arg4)) :=
  (W2_of_ne m ρ c main_arg4 (by decide)).trans (keep0_arg4 (W0 m ρ c))
theorem W4_arg4 (c : Dev nD) : W4 m ρ c (Proc.devRef .tc main_arg4) = (m ((c : Thread nD τ).loc main_arg4)) :=
  (W4_of_ne m ρ c main_arg4 (by decide)).trans ((keep1_arg4 (W2 m ρ c)).trans (W2_arg4 m ρ c))

theorem W2_arg5 (c : Dev nD) : W2 m ρ c (Proc.devRef .tc main_arg5) = (m ((c : Thread nD τ).loc main_arg5)) :=
  (W2_of_ne m ρ c main_arg5 (by decide)).trans (keep0_arg5 (W0 m ρ c))
theorem W4_arg5 (c : Dev nD) : W4 m ρ c (Proc.devRef .tc main_arg5) = (m ((c : Thread nD τ).loc main_arg5)) :=
  (W4_of_ne m ρ c main_arg5 (by decide)).trans ((keep1_arg5 (W2 m ρ c)).trans (W2_arg5 m ρ c))
theorem W6_arg5 (c : Dev nD) : W6 m ρ c (Proc.devRef .tc main_arg5) = (m ((c : Thread nD τ).loc main_arg5)) :=
  (W6_of_ne m ρ c main_arg5 (by decide)).trans ((keep2_arg5 (W4 m ρ c)).trans (W4_arg5 m ρ c))

/-! ## The four regions' output arrays -/

/-- After the first region: the features times the transposed first weight matrix. -/
theorem W2_dense (c : Dev nD) : W2 m ρ c (Proc.devRef .tc main_v29)
    = Cert.Layers.mm (n := 100000) (k := 32) (c := 32) (m ((c : Thread nD τ).loc main_arg0)) (transpose S32x32 [1, 0] (m ((c : Thread nD τ).loc main_arg2)) transposes_S32x32_S32x32_1_0) :=
  (W2_arr m ρ c 2).trans ((Linear0.final (V1 m ρ) c).trans
    (congrArg₂ (Cert.Layers.mm (n := 100000) (k := 32) (c := 32)) (W1_arg0 m ρ c) (W1_weights m ρ c)))

/-- After the second region: the first layer's output. -/
theorem W4_hidden (c : Dev nD) : W4 m ρ c (Proc.devRef .tc main_v43) = gcnLayer (srcIdx (m ((c : Thread nD τ).loc main_arg1))) (dstIdx (m ((c : Thread nD τ).loc main_arg1))) (normColumn (srcIdx (m ((c : Thread nD τ).loc main_arg1))) (dstIdx (m ((c : Thread nD τ).loc main_arg1)))) (m ((c : Thread nD τ).loc main_arg0)) (m ((c : Thread nD τ).loc main_arg2)) (m ((c : Thread nD τ).loc main_arg3)) := by
  refine (W4_arr m ρ c 2).trans ((Bias1.final (V3 m ρ) c).trans ?_)
  have hA : W3 m ρ c (Proc.devRef .tc main_v41)
      = aggregate (srcIdx (m ((c : Thread nD τ).loc main_arg1))) (dstIdx (m ((c : Thread nD τ).loc main_arg1))) (normColumn (srcIdx (m ((c : Thread nD τ).loc main_arg1))) (dstIdx (m ((c : Thread nD τ).loc main_arg1)))) (Cert.Layers.mm (n := 100000) (k := 32) (c := 32) (m ((c : Thread nD τ).loc main_arg0)) (transpose S32x32 [1, 0] (m ((c : Thread nD τ).loc main_arg2)) transposes_S32x32_S32x32_1_0)) := by
    refine (stretch1_agg (W2 m ρ c)).trans ?_
    rw [W2_src m ρ c, W2_dst m ρ c, W2_norm m ρ c, W2_dense m ρ c]
  have hB : W3 m ρ c (Proc.devRef .tc main_v42) = shapeCast _ (m ((c : Thread nD τ).loc main_arg3)) shapeCasts_S32_S1x32 := by
    refine (stretch1_bias (W2 m ρ c)).trans ?_
    rw [W2_arg3 m ρ c]
  refine (congrArg₂ (Cert.Layers.biasReluRow (n := 100000) (c := 32)) hA hB).trans ?_
  exact Cert.Layers.biasReluRow_cast shapeCasts_S32_S1x32 _ _

/-- After the third region: the first layer's output times the transposed second weight matrix. -/
theorem W6_dense (c : Dev nD) : W6 m ρ c (Proc.devRef .tc main_v45)
    = Cert.Layers.mm (n := 100000) (k := 32) (c := 32) (gcnLayer (srcIdx (m ((c : Thread nD τ).loc main_arg1))) (dstIdx (m ((c : Thread nD τ).loc main_arg1))) (normColumn (srcIdx (m ((c : Thread nD τ).loc main_arg1))) (dstIdx (m ((c : Thread nD τ).loc main_arg1)))) (m ((c : Thread nD τ).loc main_arg0)) (m ((c : Thread nD τ).loc main_arg2)) (m ((c : Thread nD τ).loc main_arg3))) (transpose S32x32 [1, 0] (m ((c : Thread nD τ).loc main_arg4)) transposes_S32x32_S32x32_1_0) := by
  refine (W6_arr m ρ c 2).trans ((Linear2.final (V5 m ρ) c).trans ?_)
  have h43 : W5 m ρ c (Proc.devRef .tc main_v43) = (gcnLayer (srcIdx (m ((c : Thread nD τ).loc main_arg1))) (dstIdx (m ((c : Thread nD τ).loc main_arg1))) (normColumn (srcIdx (m ((c : Thread nD τ).loc main_arg1))) (dstIdx (m ((c : Thread nD τ).loc main_arg1)))) (m ((c : Thread nD τ).loc main_arg0)) (m ((c : Thread nD τ).loc main_arg2)) (m ((c : Thread nD τ).loc main_arg3))) := (keep2_hidden (W4 m ρ c)).trans (W4_hidden m ρ c)
  have h44 : W5 m ρ c (Proc.devRef .tc main_v44) = (transpose S32x32 [1, 0] (m ((c : Thread nD τ).loc main_arg4)) transposes_S32x32_S32x32_1_0) := by
    refine (stretch2_weights (W4 m ρ c)).trans ?_
    rw [W4_arg4 m ρ c]
  exact congrArg₂ (Cert.Layers.mm (n := 100000) (k := 32) (c := 32)) h43 h44

/-- After the fourth region: the two-layer network of the six arguments. -/
theorem W8_result (c : Dev nD) : W8 m ρ c (Proc.devRef .tc main_v59)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((Bias3.final (V7 m ρ) c).trans ?_)
  have hA : W7 m ρ c (Proc.devRef .tc main_v57)
      = aggregate (srcIdx (m ((c : Thread nD τ).loc main_arg1))) (dstIdx (m ((c : Thread nD τ).loc main_arg1))) (normColumn (srcIdx (m ((c : Thread nD τ).loc main_arg1))) (dstIdx (m ((c : Thread nD τ).loc main_arg1)))) (Cert.Layers.mm (n := 100000) (k := 32) (c := 32) (gcnLayer (srcIdx (m ((c : Thread nD τ).loc main_arg1))) (dstIdx (m ((c : Thread nD τ).loc main_arg1))) (normColumn (srcIdx (m ((c : Thread nD τ).loc main_arg1))) (dstIdx (m ((c : Thread nD τ).loc main_arg1)))) (m ((c : Thread nD τ).loc main_arg0)) (m ((c : Thread nD τ).loc main_arg2)) (m ((c : Thread nD τ).loc main_arg3))) (transpose S32x32 [1, 0] (m ((c : Thread nD τ).loc main_arg4)) transposes_S32x32_S32x32_1_0)) := by
    refine (stretch3_agg (W6 m ρ c)).trans ?_
    rw [W6_src m ρ c, W6_dst m ρ c, W6_norm m ρ c, W6_dense m ρ c]
  have hB : W7 m ρ c (Proc.devRef .tc main_v58) = shapeCast _ (m ((c : Thread nD τ).loc main_arg5)) shapeCasts_S32_S1x32 := by
    refine (stretch3_bias (W6 m ρ c)).trans ?_
    rw [W6_arg5 m ρ c]
  refine (congrArg₂ (Cert.Layers.biasReluRow (n := 100000) (c := 32)) hA hB).trans ?_
  exact Cert.Layers.biasReluRow_cast shapeCasts_S32_S1x32 _ _

end Cert.KernelIdeal.Hand

end
-- ==== Proof.ReferenceValue.lean ====
/-
  The reference's result as a function of its arguments.

  The reference is one straight line of host operations; its run ends with the result at the operations' composed
  term of the arguments.  That term is the same layer applied twice, each time spelled with the host's operations: a
  `dot_general` with the transposed weight matrix, the aggregation over the graph's edges, the bias broadcast in two
  steps [32] → [1, 32] → [100000, 32] and added, and the maximum with the zero splat (`hostLayer`).  Over the extended
  reals the host's `dot_general` is the matrix product and the broadcast-add-maximum is the bias and positive part, so
  `hostLayer` is `gcnLayer` and the reference's result is the two-layer network `gcn` of the six arguments.
-/
import proofs.«173779_j2860448219412_1_alg».proof.Proof.Gen.ReferenceIdeal.Run
import proofs.«173779_j2860448219412_1_alg».proof.Proof.GcnLayer

set_option maxRecDepth 16384

noncomputable section

namespace Cert.ReferenceIdeal.Hand

open Idealize.ShloMosaic Idealize.ShloMosaic.TcCoe Idealize.SL.Sem
open Cert.KernelIdeal Cert.KernelIdeal.Gen Cert.KernelIdeal.Hand

/-- One layer as the reference spells it. -/
def hostLayer (s d : EdgeNodes) (n : EdgeColumn) (h : Features) (W : Weights) (b : Bias) : Features :=
  maximumf (F := Ideal) (s := S100000x32) (φ := .f32)
    (addf (F := Ideal) (s := S100000x32) (φ := .f32)
      (aggregate s d n (Host.dotGeneral (F := Ideal) (φ₁ := .f32) (φ₂ := .f32) Cert.ReferenceIdeal.dot_S100000x32_S32x32_S100000x32_1_0_0_1_n_n none
        (h : FVec Ideal S100000x32 .f32)
        (transpose S32x32 [1, 0] (W : FVec Ideal S32x32 .f32) transposes_S32x32_S32x32_1_0 : FVec Ideal S32x32 .f32)))
      (broadcastInDim S100000x32 ![0, 1] Cert.ReferenceIdeal.Gen.bcast_S1x32_S100000x32_0_1
        (broadcastInDim S1x32 ![1] Cert.ReferenceIdeal.Gen.bcast_S32_S1x32_1 b)))
    (broadcastInDim S100000x32 ![] bcast_S_S100000x32 (constant (F := Ideal) S_ .f32 0x00000000#32))

/-- Over the extended reals the reference's layer is the layer function. -/
theorem hostLayer_eq (s d : EdgeNodes) (n : EdgeColumn) (h : Features) (W : Weights) (b : Bias) :
    hostLayer s d n h W b = gcnLayer s d n h W b := by
  unfold hostLayer gcnLayer
  rw [Cert.Layers.hostDot_eq_mm (n := 100000) (k := 32) (c := 32) Cert.ReferenceIdeal.dot_S100000x32_S32x32_S100000x32_1_0_0_1_n_n
    Cert.ReferenceIdeal.Gen.dot_S100000x32_S32x32_S100000x32_1_0_0_1_n_n_wf rfl none (h : FVec Ideal S100000x32 .f32)
    (transpose S32x32 [1, 0] (W : FVec Ideal S32x32 .f32) transposes_S32x32_S32x32_1_0 : FVec Ideal S32x32 .f32)]
  exact Cert.Layers.hostBiasRelu_eq (n := 100000) (c := 32) Cert.ReferenceIdeal.Gen.bcast_S32_S1x32_1
    Cert.ReferenceIdeal.Gen.bcast_S1x32_S100000x32_0_1 bcast_S_S100000x32 _ b

variable (m : (ℓ : Loc Cert.ReferenceIdeal.nD Cert.ReferenceIdeal.τ Cert.ReferenceIdeal.sig) → Buf (Elt Ideal) ℓ)

/-- The run's result term is the reference's layer applied twice over the graph of the edge list. -/
theorem res_eq_hostLayers (c : Dev Cert.ReferenceIdeal.nD) :
    Cert.ReferenceIdeal.Value.res_main_v63 (F := Ideal) m c
      = hostLayer (srcIdx (m ((c.tc : Thread Cert.ReferenceIdeal.nD Cert.ReferenceIdeal.τ).loc Cert.ReferenceIdeal.main_arg1))) (dstIdx (m ((c.tc : Thread Cert.ReferenceIdeal.nD Cert.ReferenceIdeal.τ).loc Cert.ReferenceIdeal.main_arg1))) (normColumn (srcIdx (m ((c.tc : Thread Cert.ReferenceIdeal.nD Cert.ReferenceIdeal.τ).loc Cert.ReferenceIdeal.main_arg1))) (dstIdx (m ((c.tc : Thread Cert.ReferenceIdeal.nD Cert.ReferenceIdeal.τ).loc Cert.ReferenceIdeal.main_arg1))))
          (hostLayer (srcIdx (m ((c.tc : Thread Cert.ReferenceIdeal.nD Cert.ReferenceIdeal.τ).loc Cert.ReferenceIdeal.main_arg1))) (dstIdx (m ((c.tc : Thread Cert.ReferenceIdeal.nD Cert.ReferenceIdeal.τ).loc Cert.ReferenceIdeal.main_arg1))) (normColumn (srcIdx (m ((c.tc : Thread Cert.ReferenceIdeal.nD Cert.ReferenceIdeal.τ).loc Cert.ReferenceIdeal.main_arg1))) (dstIdx (m ((c.tc : Thread Cert.ReferenceIdeal.nD Cert.ReferenceIdeal.τ).loc Cert.ReferenceIdeal.main_arg1)))) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.Value.res_main_v63
  rfl

/-- The reference's result is the two-layer network of its six arguments. -/
theorem res_eq_gcn (c : Dev Cert.ReferenceIdeal.nD) :
    Cert.ReferenceIdeal.Value.res_main_v63 (F := Ideal) m c
      = gcn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  refine (res_eq_hostLayers m c).trans ?_
  rw [hostLayer_eq, hostLayer_eq]
  rfl

end Cert.ReferenceIdeal.Hand

end
-- ==== Proof.lean ====
/-
  A two-layer graph convolutional network on 100000 nodes with 32 features and 3200000 edges: the kernel's program
  against the jnp reference, equal as extended reals.

  Both programs build the same graph quantities with the same host operations: a self loop appended per node, the
  in-degrees by a scatter-add of ones, their inverse square roots, an edge weight per edge.  Each layer is a dense
  transform h · Wᵀ, an aggregation (gather the rows at the edges' sources, scale by the edge weights, scatter-add into
  the destinations' rows), a bias and a positive part.  The kernel does the dense transform and the bias-and-positive-
  part in pipelined regions, ten row blocks of 10000 nodes each, and leaves the aggregation to the same host operations
  the reference uses.

  What joins the two sides, index by index and with no law of the extended reals beyond the meaning of the operations:
  * a block's matrix product accumulated into zero, after rounding both factors to bf16 (the identity on extended
    reals), is the corresponding rows of the whole matrix product, which is what the host's `dot_general` computes;
  * the bias reshaped to a row and broadcast down a block's rows is the bias broadcast [32] → [1, 32] → [100000, 32];
  * the maximum with a splat zero is the maximum with the host's zero constant.
  The sums keep their order and nothing is distributed, so the inputs' finiteness is never used.

  `KernelRun` names the result array in the kernel's run; `LinearBlocks0/2` and `BiasBlocks1/3` read each region's output
  array as one function of its input arrays; `HostStretches` reads the host operations between the regions;
  `KernelValue` composes them into `gcn` of the six arguments; `ReferenceValue` finds the same `gcn` in the reference's run.
  The idealization rewrote no operation, so the kernel's program is its own idealization read over the extended reals.
-/
import proofs.«173779_j2860448219412_1_alg».proof.Defs
import proofs.«173779_j2860448219412_1_alg».proof.Proof.Gen.Kernel
import proofs.«173779_j2860448219412_1_alg».proof.Proof.Gen.Kernel.Frame
import proofs.«173779_j2860448219412_1_alg».proof.Proof.Gen.KernelIdeal
import proofs.«173779_j2860448219412_1_alg».proof.Proof.Gen.KernelIdeal.Frame
import proofs.«173779_j2860448219412_1_alg».proof.Proof.Gen.ReferenceIdeal
import proofs.«173779_j2860448219412_1_alg».proof.Proof.Gen.ReferenceIdeal.Run
import proofs.«173779_j2860448219412_1_alg».proof.Proof.Gen.Pre_finite_inputs
import proofs.«173779_j2860448219412_1_alg».proof.Proof.KernelRun
import proofs.«173779_j2860448219412_1_alg».proof.Proof.KernelValue
import proofs.«173779_j2860448219412_1_alg».proof.Proof.ReferenceValue

noncomputable section

namespace Cert.Proof

open Idealize.ShloMosaic Idealize.ShloMosaic.TcCoe Idealize.SL.Sem

/-- The kernel's program runs, and its frame holds at the word level. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: there is nothing to preserve. -/
theorem preserves : Cert.preserves_Kernel_KernelIdeal := trivial

/-- Over the extended reals the kernel's program ends with its result array at the two-layer network of its six
    arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v59)
          = Cert.KernelIdeal.Hand.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))) :=
  (θ_run Cert.KernelIdeal.defs _ _).mono
    (fun _ h c => ⟨(h c).1.trans (Cert.KernelIdeal.Hand.W8_result m ρ c), (h c).2⟩)
    (Cert.KernelIdeal.Hand.run_named (F := Ideal) m ρ)

/-- From memories that agree on the six arguments both programs end with the same result array: the two-layer network
    of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Hand.res_eq_gcn m' c, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
